-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v21)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v47) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S40000x128 : Shape := ⟨2, ![40000, 128]⟩
abbrev S640000 : Shape := ⟨1, ![640000]⟩
abbrev S128x128 : Shape := ⟨2, ![128, 128]⟩
abbrev S128 : Shape := ⟨1, ![128]⟩
abbrev S_ : Shape := ⟨0, ![]⟩

class Facts : Prop where
  bcast_S_S40000x128 : S_.BroadcastsInDim S40000x128 (![] : Fin 0 → Fin S40000x128.rank)
  reducesTo_S40000x128_S_d0_1 : S40000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg6 : FVec F S128 .f32) (main_arg7 : FVec F S128x128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg7
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  main_v28

def fn {F : FTy → Type} [FloatOps F] (main_arg0 : FVec F S40000x128 .f32) (main_arg1 : FVec F S40000x128 .f32) (main_arg2 : IVec S640000 32) (main_arg3 : IVec S640000 32) (main_arg4 : FVec F S128x128 .f32) (main_arg5 : FVec F S128x128 .f32) (main_arg6 : FVec F S128 .f32) (main_arg7 : FVec F S128x128 .f32) : IVec S_ 1 :=
  let main_v0 : FVec F S40000x128 .f32 := Host.absf main_arg0
  let main_cst : FVec F S_ .f32 := constant S_ .f32 0x7F800000#32
  let main_v1 : FVec F S40000x128 .f32 := broadcastInDim S40000x128 ![] bcast_S_S40000x128 main_cst
  let main_v2 : IVec S40000x128 1 := cmpf .olt main_v0 main_v1
  let main_c : IVec S_ 1 := constantI S_ 1 1#1
  let main_v3 : IVec S_ 1 := (fun x v => Host.reduce IntOp.andi x v reducesTo_S40000x128_S_d0_1 h_S_) main_v2 main_c
  let main_v4 : FVec F S40000x128 .f32 := Host.absf main_arg1
  let main_cst_0 : FVec F S_ .f32 := constant S_ .f32 0x7F800000#32
  let main_v5 : FVec F S40000x128 .f32 := broadcastInDim S40000x128 ![] bcast_S_S40000x128 main_cst_0
  let main_v6 : IVec S40000x128 1 := cmpf .olt main_v4 main_v5
  let main_c_1 : IVec S_ 1 := constantI S_ 1 1#1
  let main_v7 : IVec S_ 1 := (fun x v => Host.reduce IntOp.andi x v reducesTo_S40000x128_S_d0_1 h_S_) main_v6 main_c_1
  let main_v8 : IVec S_ 1 := andi main_v3 main_v7
  let main_v9 : FVec F S128x128 .f32 := Host.absf main_arg4
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg6 main_arg7 main_v13 main_v16
-- ==== Kernel.lean ====
abbrev S40000x128 : Shape := ⟨2, ![40000, 128]⟩
abbrev S640000 : Shape := ⟨1, ![640000]⟩
abbrev S128x128 : Shape := ⟨2, ![128, 128]⟩
abbrev S128 : Shape := ⟨1, ![128]⟩
abbrev S_ : Shape := ⟨0, ![]⟩
abbrev S40000 : Shape := ⟨1, ![40000]⟩
abbrev S640000x1 : Shape := ⟨2, ![640000, 1]⟩
abbrev S40000x1 : Shape := ⟨2, ![40000, 1]⟩
abbrev S640000x128 : Shape := ⟨2, ![640000, 128]⟩
abbrev S1x128 : Shape := ⟨2, ![1, 128]⟩
abbrev S2000x128 : Shape := ⟨2, ![2000, 128]⟩
abbrev S2000x1 : Shape := ⟨2, ![2000, 1]⟩

abbrev nBuf : Space → Nat
  | .hbm => 39
  | .vmem => 12
  | .smem => 0
  | _ => 0

abbrev bufTy : (tb : Table) → Fin (tcTables nBuf tb) → BufTy
  | .hbm, ⟨0, _⟩ => ⟨S40000x128, .f32⟩
  | .hbm, ⟨1, _⟩ => ⟨S40000x128, .f32⟩
  | .hbm, ⟨2, _⟩ => ⟨S640000, .i32⟩
  | .hbm, ⟨3, _⟩ => ⟨S640000, .i32⟩
  | .hbm, ⟨4, _⟩ => ⟨S128x128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S_, .f32⟩
  | .hbm, ⟨9, _⟩ => ⟨S640000, .f32⟩
  | .hbm, ⟨10, _⟩ => ⟨S_, .f32⟩
  | .hbm, ⟨11, _⟩ => ⟨S40000, .f32⟩
  | .hbm, ⟨12, _⟩ => ⟨S640000x1, .i32⟩
  | .hbm, ⟨13, _⟩ => ⟨S40000, .f32⟩
  | .hbm, ⟨14, _⟩ => ⟨S_, .f32⟩
  | .hbm, ⟨15, _⟩ => ⟨S_, .f32⟩
  | .hbm, ⟨16, _⟩ => ⟨S40000, .f32⟩
  | .hbm, ⟨17, _⟩ => ⟨S40000, .f32⟩
  | .hbm, ⟨18, _⟩ => ⟨S_, .f32⟩
  | .hbm, ⟨19, _⟩ => ⟨S40000, .f32⟩
  | .hbm, ⟨20, _⟩ => ⟨S40000, .f32⟩
  | .hbm, ⟨21, _⟩ => ⟨S40000x1, .f32⟩
  | .hbm, ⟨22, _⟩ => ⟨S40000x128, .f32⟩
  | .hbm, ⟨23, _⟩ => ⟨S40000x128, .f32⟩
  | .hbm, ⟨24, _⟩ => ⟨S_, .i32⟩
  | .hbm, ⟨25, _⟩ => ⟨S640000, .i32⟩
  | .hbm, ⟨26, _⟩ => ⟨S640000, .i1⟩
  | .hbm, ⟨27, _⟩ => ⟨S_, .i32⟩
  | .hbm, ⟨28, _⟩ => ⟨S640000, .i32⟩
  | .hbm, ⟨29, _⟩ => ⟨S640000, .i32⟩
  | .hbm, ⟨30, _⟩ => ⟨S640000, .i32⟩
  | .hbm, ⟨31, _⟩ => ⟨S640000x1, .i32⟩
  | .hbm, ⟨32, _⟩ => ⟨S640000x128, .f32⟩
  | .hbm, ⟨33, _⟩ => ⟨S_, .f32⟩
  | .hbm, ⟨34, _⟩ => ⟨S40000x128, .f32⟩
  | .hbm, ⟨35, _⟩ => ⟨S640000x1, .i32⟩
  | .hbm, ⟨36, _⟩ => ⟨S40000x128, .f32⟩
  | .hbm, ⟨37, _⟩ => ⟨S1x128, .f32⟩
  | .hbm, ⟨38, _⟩ => ⟨S40000x128, .f32⟩
  | .local _ .vmem, ⟨0, _⟩ => ⟨S2000x128, .f32⟩
  | .local _ .vmem, ⟨1, _⟩ => ⟨S2000x128, .f32⟩
  | .local _ .vmem, ⟨2, _⟩ => ⟨S2000x1, .f32⟩
  | .local _ .vmem, ⟨3, _⟩ => ⟨S2000x1, .f32⟩
  | .local _ .vmem, ⟨4, _⟩ => ⟨S2000x128, .f32⟩
  | .local _ .vmem, ⟨5, _⟩ => ⟨S2000x128, .f32⟩
  | .local _ .vmem, ⟨6, _⟩ => ⟨S128x128, .f32⟩
  | .local _ .vmem, ⟨7, _⟩ => ⟨S128x128, .f32⟩
  | .local _ .vmem, ⟨8, _⟩ => ⟨S1x128, .f32⟩
  | .local _ .vmem, ⟨9, _⟩ => ⟨S128x128, .f32⟩
  | .local _ .vmem, ⟨10, _⟩ => ⟨S2000x128, .f32⟩
  | .local _ .vmem, ⟨11, _⟩ => ⟨S2000x128, .f32⟩
  | _, _ => ⟨S40000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_cst_0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst_1 : Ref sig .tc := ⟨.hbm, 14, rfl⟩
abbrev main_call0_v0 : Ref sig .tc := ⟨.hbm, 15, rfl⟩
abbrev main_call0_v1 : Ref sig .tc := ⟨.hbm, 16, rfl⟩
abbrev main_v4 : Ref sig .tc := ⟨.hbm, 17, rfl⟩
abbrev main_cst_2 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_c : Ref sig .tc := ⟨.hbm, 24, rfl⟩
abbrev main_v10 : Ref sig .tc := ⟨.hbm, 25, rfl⟩
abbrev main_v11 : Ref sig .tc := ⟨.hbm, 26, rfl⟩
abbrev main_c_3 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_cst_4 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S2000x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  bcast_S_S640000 : S_.BroadcastsInDim S640000 (![] : Fin 0 → Fin S640000.rank)
  bcast_S_S40000 : S_.BroadcastsInDim S40000 (![] : Fin 0 → Fin S40000.rank)
  bcast_S640000_S640000x1_0 : S640000.BroadcastsInDim S640000x1 (![0] : Fin 1 → Fin S640000x1.rank)
  bcast_S40000_S40000x1_0 : S40000.BroadcastsInDim S40000x1 (![0] : Fin 1 → Fin S40000x1.rank)
  bcast_S40000x1_S40000x128_0_1 : S40000x1.BroadcastsInDim S40000x128 (![0, 1] : Fin 2 → Fin S40000x128.rank)
  bcast_S_S40000x128 : S_.BroadcastsInDim S40000x128 (![] : Fin 0 → Fin S40000x128.rank)
  shapeCasts_S128_S1x128 : S128.ShapeCasts S1x128
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x128 : S2000x1.Broadcasts S2000x128
  inb_S128x128_S128x128_0_0 : ∀ a, (![0, 0] : Fin 2 → Nat) a + S128x128.size a ≤ S128x128.size a
  h_S128x128 : 0 < S128x128.numel
  bitsLt_bf16_f32 : FTy.bits .bf16 < FTy.bits .f32
  inb_S1x128_S1x128_0_0 : ∀ a, (![0, 0] : Fin 2 → Nat) a + S1x128.size a ≤ S1x128.size a
  h_S1x128 : 0 < S1x128.numel
  shapeCasts_S1x128_S1x128 : S1x128.ShapeCasts S1x128
  transposes_S128x128_p1_0_S128x128 : S128x128.Transposes [1, 0] S128x128
  broadcasts_S1x128_S2000x128 : S1x128.Broadcasts S2000x128
  scatter_S40000_S640000x1_S640000_n_0_0_1_wf : ScatterDims.WF S40000 S640000x1 S640000 [] [0] [0] 1
  gather_S40000x128_S640000x1_S640000x128_1_0_n_n_0_1_1128_wf : GatherDims.WF S40000x128 S640000x1 S640000x128 [1] [0] [] [0] [] 1 ![1, 128]
  scatter_S40000x128_S640000x1_S640000x128_1_0_0_1_wf : ScatterDims.WF S40000x128 S640000x1 S640000x128 [1] [0] [0] 1
  dot_S2000x128_S128x128_S2000x128_1_0_0_1_n_n_wf : DotDims.WF S2000x128 S128x128 S2000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S40000x128.size a
  hwx0_0 : ∀ i : grid0.Coords, EltTy.bits .f32 = 32 ∨ (Rect.block (s := S40000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x1.size a ≤ S40000x1.size a
  hwx0_1 : ∀ i : grid0.Coords, EltTy.bits .f32 = 32 ∨ (Rect.block (s := S40000x1) S2000x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x128.size a ≤ S40000x128.size a
  hwx0_2 : ∀ i : grid0.Coords, EltTy.bits .f32 = 32 ∨ (Rect.block (s := S40000x128) S2000x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128x128.size a ≤ S128x128.size a
  hwx0_6 : ∀ i : grid0.Coords, EltTy.bits .f32 = 32 ∨ (Rect.block (s := S128x128) S128x128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S2000x128.size a ≤ S40000x128.size a
  hwx0_7 : ∀ i : grid0.Coords, EltTy.bits .f32 = 32 ∨ (Rect.block (s := S40000x128) S2000x128.size (cc0_transform_7 i) (hinb0_7 i)).WholeWords (EltTy.packing .f32)

variable [Facts₀]

def scatter_S40000_S640000x1_S640000_n_0_0_1 : ScatterDims S40000 S640000x1 S640000 where
  updateWindowDims := []
  insertedWindowDims := [0]
  scatterDimsToOperandDims := [0]
  indexVectorDim := 1
  wf := scatter_S40000_S640000x1_S640000_n_0_0_1_wf
def gather_S40000x128_S640000x1_S640000x128_1_0_n_n_0_1_1128 : GatherDims S40000x128 S640000x1 S640000x128 where
  offsetDims := [1]
  collapsedSliceDims := [0]
  operandBatchingDims := []
  startIndicesBatchingDims := []
  startIndexMap := [0]
  indexVectorDim := 1
  sliceSizes := ![1, 128]
  wf := gather_S40000x128_S640000x1_S640000x128_1_0_n_n_0_1_1128_wf
def scatter_S40000x128_S640000x1_S640000x128_1_0_0_1 : ScatterDims S40000x128 S640000x1 S640000x128 where
  updateWindowDims := [1]
  insertedWindowDims := [0]
  scatterDimsToOperandDims := [0]
  indexVectorDim := 1
  wf := scatter_S40000x128_S640000x1_S640000x128_1_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf

abbrev win0_0 : Pipeline.Window sig grid0 :=
  Pipeline.Window.ofSpec (Memref.whole main_v19) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v7) S2000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S2000x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v20) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg7) S128x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v21) S2000x128.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S40000x128 : Shape := ⟨2, ![40000, 128]⟩
abbrev S640000 : Shape := ⟨1, ![640000]⟩
abbrev S128x128 : Shape := ⟨2, ![128, 128]⟩
abbrev S128 : Shape := ⟨1, ![128]⟩
abbrev S_ : Shape := ⟨0, ![]⟩
abbrev S40000 : Shape := ⟨1, ![40000]⟩
abbrev S640000x1 : Shape := ⟨2, ![640000, 1]⟩
abbrev S40000x1 : Shape := ⟨2, ![40000, 1]⟩
abbrev S640000x128 : Shape := ⟨2, ![640000, 128]⟩
abbrev S1x128 : Shape := ⟨2, ![1, 128]⟩

abbrev nBuf : Space → Nat
  | .hbm => 70
  | .vmem => 0
  | .smem => 0
  | _ => 0

abbrev bufTy : (tb : Table) → Fin (tcTables nBuf tb) → BufTy
  | .hbm, ⟨0, _⟩ => ⟨S40000x128, .f32⟩
  | .hbm, ⟨1, _⟩ => ⟨S40000x128, .f32⟩
  | .hbm, ⟨2, _⟩ => ⟨S640000, .i32⟩
  | .hbm, ⟨3, _⟩ => ⟨S640000, .i32⟩
  | .hbm, ⟨4, _⟩ => ⟨S128x128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S_, .f32⟩
  | .hbm, ⟨9, _⟩ => ⟨S640000, .f32⟩
  | .hbm, ⟨10, _⟩ => ⟨S_, .f32⟩
  | .hbm, ⟨11, _⟩ => ⟨S40000, .f32⟩
  | .hbm, ⟨12, _⟩ => ⟨S640000x1, .i32⟩
  | .hbm, ⟨13, _⟩ => ⟨S40000, .f32⟩
  | .hbm, ⟨14, _⟩ => ⟨S_, .f32⟩
  | .hbm, ⟨15, _⟩ => ⟨S_, .f32⟩
  | .hbm, ⟨16, _⟩ => ⟨S40000, .f32⟩
  | .hbm, ⟨17, _⟩ => ⟨S40000, .f32⟩
  | .hbm, ⟨18, _⟩ => ⟨S_, .f32⟩
  | .hbm, ⟨19, _⟩ => ⟨S40000, .f32⟩
  | .hbm, ⟨20, _⟩ => ⟨S40000, .f32⟩
  | .hbm, ⟨21, _⟩ => ⟨S40000x1, .f32⟩
  | .hbm, ⟨22, _⟩ => ⟨S40000x128, .f32⟩
  | .hbm, ⟨23, _⟩ => ⟨S40000x128, .f32⟩
  | .hbm, ⟨24, _⟩ => ⟨S_, .i32⟩
  | .hbm, ⟨25, _⟩ => ⟨S640000, .i32⟩
  | .hbm, ⟨26, _⟩ => ⟨S640000, .i1⟩
  | .hbm, ⟨27, _⟩ => ⟨S_, .i32⟩
  | .hbm, ⟨28, _⟩ => ⟨S640000, .i32⟩
  | .hbm, ⟨29, _⟩ => ⟨S640000, .i32⟩
  | .hbm, ⟨30, _⟩ => ⟨S640000, .i32⟩
  | .hbm, ⟨31, _⟩ => ⟨S640000x1, .i32⟩
  | .hbm, ⟨32, _⟩ => ⟨S640000x128, .f32⟩
  | .hbm, ⟨33, _⟩ => ⟨S_, .f32⟩
  | .hbm, ⟨34, _⟩ => ⟨S40000x128, .f32⟩
  | .hbm, ⟨35, _⟩ => ⟨S640000x1, .i32⟩
  | .hbm, ⟨36, _⟩ => ⟨S40000x128, .f32⟩
  | .hbm, ⟨37, _⟩ => ⟨S40000x128, .f32⟩
  | .hbm, ⟨38, _⟩ => ⟨S40000x128, .f32⟩
  | .hbm, ⟨39, _⟩ => ⟨S128x128, .f32⟩
  | .hbm, ⟨40, _⟩ => ⟨S40000x128, .f32⟩
  | .hbm, ⟨41, _⟩ => ⟨S128x128, .f32⟩
  | .hbm, ⟨42, _⟩ => ⟨S40000x128, .f32⟩
  | .hbm, ⟨43, _⟩ => ⟨S40000x128, .f32⟩
  | .hbm, ⟨44, _⟩ => ⟨S1x128, .f32⟩
  | .hbm, ⟨45, _⟩ => ⟨S40000x128, .f32⟩
  | .hbm, ⟨46, _⟩ => ⟨S40000x128, .f32⟩
  | .hbm, ⟨47, _⟩ => ⟨S40000x128, .f32⟩
  | .hbm, ⟨48, _⟩ => ⟨S40000x128, .f32⟩
  | .hbm, ⟨49, _⟩ => ⟨S_, .f32⟩
  | .hbm, ⟨50, _⟩ => ⟨S40000x128, .f32⟩
  | .hbm, ⟨51, _⟩ => ⟨S40000x128, .f32⟩
  | .hbm, ⟨52, _⟩ => ⟨S_, .f32⟩
  | .hbm, ⟨53, _⟩ => ⟨S40000x128, .f32⟩
  | .hbm, ⟨54, _⟩ => ⟨S40000x128, .f32⟩
  | .hbm, ⟨55, _⟩ => ⟨S40000x128, .f32⟩
  | .hbm, ⟨56, _⟩ => ⟨S_, .f32⟩
  | .hbm, ⟨57, _⟩ => ⟨S40000x128, .f32⟩
  | .hbm, ⟨58, _⟩ => ⟨S40000x128, .f32⟩
  | .hbm, ⟨59, _⟩ => ⟨S40000x128, .f32⟩
  | .hbm, ⟨60, _⟩ => ⟨S40000x128, .f32⟩
  | .hbm, ⟨61, _⟩ => ⟨S_, .f32⟩
  | .hbm, ⟨62, _⟩ => ⟨S40000x128, .f32⟩
  | .hbm, ⟨63, _⟩ => ⟨S40000x128, .f32⟩
  | .hbm, ⟨64, _⟩ => ⟨S128x128, .f32⟩
  | .hbm, ⟨65, _⟩ => ⟨S40000x128, .f32⟩
  | .hbm, ⟨66, _⟩ => ⟨S_, .f32⟩
  | .hbm, ⟨67, _⟩ => ⟨S40000x128, .f32⟩
  | .hbm, ⟨68, _⟩ => ⟨S40000x128, .f32⟩
  | .hbm, ⟨69, _⟩ => ⟨S40000x128, .f32⟩
  | _, _ => ⟨S40000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_cst_0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst_1 : Ref sig .tc := ⟨.hbm, 14, rfl⟩
abbrev main_call0_v0 : Ref sig .tc := ⟨.hbm, 15, rfl⟩
abbrev main_call0_v1 : Ref sig .tc := ⟨.hbm, 16, rfl⟩
abbrev main_v4 : Ref sig .tc := ⟨.hbm, 17, rfl⟩
abbrev main_cst_2 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_c : Ref sig .tc := ⟨.hbm, 24, rfl⟩
abbrev main_v10 : Ref sig .tc := ⟨.hbm, 25, rfl⟩
abbrev main_v11 : Ref sig .tc := ⟨.hbm, 26, rfl⟩
abbrev main_c_3 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_cst_4 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_cst_5 : Ref sig .tc := ⟨.hbm, 49, rfl⟩
abbrev main_v32 : Ref sig .tc := ⟨.hbm, 50, rfl⟩
abbrev main_v33 : Ref sig .tc := ⟨.hbm, 51, rfl⟩
abbrev main_cst_6 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_cst_7 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_8 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_cst_9 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩

abbrev nD : Nat := 1
abbrev τ : Topo := Topo.v7x

variable {F : FTy → Type} [FloatOps F]

class Facts₀ : Prop where
  bcast_S_S640000 : S_.BroadcastsInDim S640000 (![] : Fin 0 → Fin S640000.rank)
  bcast_S_S40000 : S_.BroadcastsInDim S40000 (![] : Fin 0 → Fin S40000.rank)
  bcast_S640000_S640000x1_0 : S640000.BroadcastsInDim S640000x1 (![0] : Fin 1 → Fin S640000x1.rank)
  bcast_S40000_S40000x1_0 : S40000.BroadcastsInDim S40000x1 (![0] : Fin 1 → Fin S40000x1.rank)
  bcast_S40000x1_S40000x128_0_1 : S40000x1.BroadcastsInDim S40000x128 (![0, 1] : Fin 2 → Fin S40000x128.rank)
  bcast_S_S40000x128 : S_.BroadcastsInDim S40000x128 (![] : Fin 0 → Fin S40000x128.rank)
  transposes_S128x128_S128x128_1_0 : S128x128.Transposes [1, 0] S128x128
  bcast_S128_S1x128_1 : S128.BroadcastsInDim S1x128 (![1] : Fin 1 → Fin S1x128.rank)
  bcast_S1x128_S40000x128_0_1 : S1x128.BroadcastsInDim S40000x128 (![0, 1] : Fin 2 → Fin S40000x128.rank)
  scatter_S40000_S640000x1_S640000_n_0_0_1_wf : ScatterDims.WF S40000 S640000x1 S640000 [] [0] [0] 1
  gather_S40000x128_S640000x1_S640000x128_1_0_n_n_0_1_1128_wf : GatherDims.WF S40000x128 S640000x1 S640000x128 [1] [0] [] [0] [] 1 ![1, 128]
  scatter_S40000x128_S640000x1_S640000x128_1_0_0_1_wf : ScatterDims.WF S40000x128 S640000x1 S640000x128 [1] [0] [0] 1
  dot_S40000x128_S128x128_S40000x128_1_0_0_1_n_n_wf : DotDims.WF S40000x128 S128x128 S40000x128 [1] [0] [0] [1] [] []

variable [Facts₀]

def scatter_S40000_S640000x1_S640000_n_0_0_1 : ScatterDims S40000 S640000x1 S640000 where
  updateWindowDims := []
  insertedWindowDims := [0]
  scatterDimsToOperandDims := [0]
  indexVectorDim := 1
  wf := scatter_S40000_S640000x1_S640000_n_0_0_1_wf
def gather_S40000x128_S640000x1_S640000x128_1_0_n_n_0_1_1128 : GatherDims S40000x128 S640000x1 S640000x128 where
  offsetDims := [1]
  collapsedSliceDims := [0]
  operandBatchingDims := []
  startIndicesBatchingDims := []
  startIndexMap := [0]
  indexVectorDim := 1
  sliceSizes := ![1, 128]
  wf := gather_S40000x128_S640000x1_S640000x128_1_0_n_n_0_1_1128_wf
def scatter_S40000x128_S640000x1_S640000x128_1_0_0_1 : ScatterDims S40000x128 S640000x1 S640000x128 where
  updateWindowDims := [1]
  insertedWindowDims := [0]
  scatterDimsToOperandDims := [0]
  indexVectorDim := 1
  wf := scatter_S40000x128_S640000x1_S640000x128_1_0_0_1_wf
def dot_S40000x128_S128x128_S40000x128_1_0_0_1_n_n : DotDims S40000x128 S128x128 S40000x128 where
  lhsContracting := [1]
  rhsContracting := [0]
  lhsNonContracting := [0]
  rhsNonContracting := [1]
  lhsBatch := []
  rhsBatch := []
  wf := dot_S40000x128_S128x128_S40000x128_1_0_0_1_n_n_wf

class Facts : Prop extends Facts₀ where

variable [Facts]
-- ==== Proof.GatedRow.lean ====
/-
  One node's row of a gated graph-convolution layer, over the extended reals.

  A node carries a row `h` of 128 aggregated features (already scaled by the node's degree factor) and a
  row `x` of 128 initial features. Channel `c` of the gate is the logistic function of
  (∑ₖ h k · W1 c k) + (∑ₖ x k · W2 c k) + b c; the mixed row is h c · gate c + x c · (1 − gate c); and the
  layer's output is 0.9f · mixed c + 0.1f · ∑ₖ mixed k · Wl c k, where 0.9f and 0.1f are the two f32
  numbers the source writes as 1 − 0.1 and 0.1. The three float constants are kept as their bit patterns:
  both programs write the same patterns, so their values never matter, except that the pattern of 1.0 is the
  extended real 1 where the logistic function is spelled out as 1 / (1 + e^(−z)).
-/
import Idealize.ShloMosaic.PureOps.Ideal
import Idealize.ShloMosaic.Lib.IdealHost

noncomputable section

open scoped BigOperators

namespace Cert.GatedRow

open Idealize.ShloMosaic Idealize.ShloMosaic.ValueIdx

/-- Channel `c` of the gate of one node: the logistic function of the row's two projections plus the bias. -/
def gate (h x : Fin 128 → EReal) (W1 W2 : Fin 128 → Fin 128 → EReal) (b : Fin 128 → EReal) (c : Fin 128) : EReal :=
  Ideal.logistic (((∑ k : Fin 128, h k * W1 c k) + ∑ k : Fin 128, x k * W2 c k) + b c)

/-- Channel `c` of the mixed row: the aggregate weighted by the gate, the initial features by its complement. -/
def mix (h x : Fin 128 → EReal) (W1 W2 : Fin 128 → Fin 128 → EReal) (b : Fin 128 → EReal) (c : Fin 128) : EReal :=
  h c * gate h x W1 W2 b c + x c * (Ideal.ofBits .f32 0x3F800000#32 - gate h x W1 W2 b c)

/-- Channel `c` of the layer's output: the mixed row and its linear image, blended by the two constants. -/
def out (h x : Fin 128 → EReal) (W1 W2 : Fin 128 → Fin 128 → EReal) (b : Fin 128 → EReal)
    (Wl : Fin 128 → Fin 128 → EReal) (c : Fin 128) : EReal :=
  Ideal.ofBits .f32 0x3F666666#32 * mix h x W1 W2 b c
    + Ideal.ofBits .f32 0x3DCCCCCD#32 * ∑ k : Fin 128, mix h x W1 W2 b k * Wl c k

/-- The row function depends only on the rows, the weights and the bias it is given. -/
theorem out_congr {h h' x x' : Fin 128 → EReal} {W1 W1' W2 W2' : Fin 128 → Fin 128 → EReal} {b b' : Fin 128 → EReal}
    {Wl Wl' : Fin 128 → Fin 128 → EReal} (eh : h = h') (ex : x = x') (e1 : W1 = W1') (e2 : W2 = W2') (eb : b = b')
    (el : Wl = Wl') (c : Fin 128) : out h x W1 W2 b Wl c = out h' x' W1' W2' b' Wl' c := by
  rw [eh, ex, e1, e2, eb, el]

/-- The layer at node `r` and channel `c`, from whole arrays: the node's aggregated row is row `r` of `agg`
    scaled by the node's degree factor `nrm (r, 0)`; the initial row is row `r` of `init`; the weights are read
    as `W (c, k)` (the programs multiply by the transposed matrices) and the bias as `b c`. -/
def layerAt (agg : (⟨2, ![40000, 128]⟩ : Shape).Idx → EReal) (nrm : (⟨2, ![40000, 1]⟩ : Shape).Idx → EReal)
    (init : (⟨2, ![40000, 128]⟩ : Shape).Idx → EReal) (W1 W2 : (⟨2, ![128, 128]⟩ : Shape).Idx → EReal)
    (b : (⟨1, ![128]⟩ : Shape).Idx → EReal) (Wl : (⟨2, ![128, 128]⟩ : Shape).Idx → EReal)
    (r : Fin 40000) (c : Fin 128) : EReal :=
  out (fun k => agg (ix2 r k) * nrm (ix2 r (0 : Fin 1))) (fun k => init (ix2 r k))
    (fun c k => W1 (ix2 c k)) (fun c k => W2 (ix2 c k)) (fun c => b (ix1 c)) (fun c k => Wl (ix2 c k)) c

/-- The layer's whole output array: entry (r, c) is `layerAt … r c`. -/
def layer (agg : (⟨2, ![40000, 128]⟩ : Shape).Idx → EReal) (nrm : (⟨2, ![40000, 1]⟩ : Shape).Idx → EReal)
    (init : (⟨2, ![40000, 128]⟩ : Shape).Idx → EReal) (W1 W2 : (⟨2, ![128, 128]⟩ : Shape).Idx → EReal)
    (b : (⟨1, ![128]⟩ : Shape).Idx → EReal) (Wl : (⟨2, ![128, 128]⟩ : Shape).Idx → EReal) :
    (⟨2, ![40000, 128]⟩ : Shape).Idx → EReal :=
  fun i => layerAt agg nrm init W1 W2 b Wl (i 0) (i 1)

theorem layer_ix2 (agg : (⟨2, ![40000, 128]⟩ : Shape).Idx → EReal) (nrm : (⟨2, ![40000, 1]⟩ : Shape).Idx → EReal)
    (init : (⟨2, ![40000, 128]⟩ : Shape).Idx → EReal) (W1 W2 : (⟨2, ![128, 128]⟩ : Shape).Idx → EReal)
    (b : (⟨1, ![128]⟩ : Shape).Idx → EReal) (Wl : (⟨2, ![128, 128]⟩ : Shape).Idx → EReal) (r : Fin 40000) (c : Fin 128) :
    layer agg nrm init W1 W2 b Wl (ix2 r c) = layerAt agg nrm init W1 W2 b Wl r c := rfl

/-- The logistic function spelled out with the f32 pattern of 1.0: 1 / (1 + e^(−z)), at every extended real. -/
theorem logistic_spelled (z : EReal) :
    Ideal.div (Ideal.ofBits .f32 0x3F800000#32) (Ideal.ofBits .f32 0x3F800000#32 + Ideal.exp (-z)) = Ideal.logistic z := by
  rw [Ideal.ofBits_one_f32]
  rfl

end Cert.GatedRow

end
-- ==== Proof.LibColumn.lean ====
/-
  A column read at an index.

  A vector of length a cast to an a-by-1 column reads, at (i, u), the vector at i; an a-by-1 column
  broadcast across b lanes reads, at (p, c), the column's entry of row p. These are the keep-dims forms a
  row reduction leaves behind: the reduced value of row p, used again at every lane of that row.
-/
import Idealize.ShloMosaic.Lib.ValueLayout

namespace Idealize.ShloMosaic.ColumnIdx

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ColumnIdx
-- ==== Proof.BodyRows.lean ====
/-
  The kernel body's stored value read row by row.

  At each grid point the body loads a block of 2000 rows of the aggregate, of the degree column and of the
  initial features, the three 128×128 weight matrices and the bias row, and stores one 2000×128 value. The
  three products are matrix products with the weight matrix transposed, accumulated into zero: entry (p, c)
  is the sum over k of the left row p at k times W (c, k). Roundings to the 16-bit format are the identity on
  the extended reals. Read at row `p` and channel `c` of the block, the stored value is the row function
  `GatedRow.out` of row `p` of the three row blocks, so it depends on no other row.
-/
import proofs.«179832_j86294482911942_1_alg».proof.Proof.Gen.KernelIdeal.Skeleton
import proofs.«179832_j86294482911942_1_alg».proof.Proof.GatedRow
import proofs.«179832_j86294482911942_1_alg».proof.Proof.LibColumn
import Idealize.ShloMosaic.Lib.ValueLayout
import Idealize.ShloMosaic.PureOps.Ideal.Laws

noncomputable section

open scoped BigOperators

namespace Cert.KernelIdeal.Body

open Cert.KernelIdeal Cert.KernelIdeal.Gen Idealize.ShloMosaic Idealize.ShloMosaic.ValueIdx Idealize.ShloMosaic.ColumnIdx

/-! ## The product's operand indices -/

theorem lhs_row (i : S2000x128.Idx) (q : dot_S2000x128_S128x128_S2000x128_1_0_0_1_n_n.contr.Idx) : (dot_S2000x128_S128x128_S2000x128_1_0_0_1_n_n.lhsIdx i q 0).val = (i 0).val := by
  unfold DotDims.lhsIdx
  rw [dif_neg (show ¬(0 : Fin S2000x128.rank) ∈ dot_S2000x128_S128x128_S2000x128_1_0_0_1_n_n.lhsBatch by decide),
    dif_pos (show (0 : Fin S2000x128.rank) ∈ dot_S2000x128_S128x128_S2000x128_1_0_0_1_n_n.lhsNonContracting by decide)]
  rfl

theorem lhs_col (i : S2000x128.Idx) (q : dot_S2000x128_S128x128_S2000x128_1_0_0_1_n_n.contr.Idx) : (dot_S2000x128_S128x128_S2000x128_1_0_0_1_n_n.lhsIdx i q 1).val = (q ⟨0, by decide⟩).val :=
  dot_S2000x128_S128x128_S2000x128_1_0_0_1_n_n.lhsIdx_val_of_single rfl i q

theorem rhs_row (i : S2000x128.Idx) (q : dot_S2000x128_S128x128_S2000x128_1_0_0_1_n_n.contr.Idx) : (dot_S2000x128_S128x128_S2000x128_1_0_0_1_n_n.rhsIdx i q 0).val = (q ⟨0, by decide⟩).val :=
  dot_S2000x128_S128x128_S2000x128_1_0_0_1_n_n.rhsIdx_val_of_single rfl i q

theorem rhs_col (i : S2000x128.Idx) (q : dot_S2000x128_S128x128_S2000x128_1_0_0_1_n_n.contr.Idx) : (dot_S2000x128_S128x128_S2000x128_1_0_0_1_n_n.rhsIdx i q 1).val = (i 1).val := by
  unfold DotDims.rhsIdx
  rw [dif_neg (show ¬(1 : Fin S128x128.rank) ∈ dot_S2000x128_S128x128_S2000x128_1_0_0_1_n_n.rhsBatch by decide),
    dif_pos (show (1 : Fin S128x128.rank) ∈ dot_S2000x128_S128x128_S2000x128_1_0_0_1_n_n.rhsNonContracting by decide)]
  rfl

/-- The body's matrix product into the zero accumulator, at (p, c): the sum over k of left (p, k) · right (k, c). -/
theorem matmul_at {φ₁ φ₂ : FTy} (l : FVec Ideal S2000x128 φ₁) (w : FVec Ideal S128x128 φ₂) (p : Fin 2000) (c : Fin 128) :
    matmul dot_S2000x128_S128x128_S2000x128_1_0_0_1_n_n none l w (constant (F := Ideal) S2000x128 .f32 0x00000000#32) (ix2 p c)
      = ∑ k : Fin 128, l (ix2 p k) * w (ix2 k c) := by
  simp only [matmul]
  rw [Ideal.matmul_constant_zero_apply, ← Equiv.sum_comp (contrEquiv1 dot_S2000x128_S128x128_S2000x128_1_0_0_1_n_n 128 rfl rfl).symm]
  refine Finset.sum_congr rfl fun k _ => ?_
  have hk := contrEquiv1_symm_val dot_S2000x128_S128x128_S2000x128_1_0_0_1_n_n 128 rfl rfl k
  have el : dot_S2000x128_S128x128_S2000x128_1_0_0_1_n_n.lhsIdx (ix2 p c) ((contrEquiv1 dot_S2000x128_S128x128_S2000x128_1_0_0_1_n_n 128 rfl rfl).symm k) = ix2 p k :=
    funext fun a => Fin.ext (by
      match a with
      | ⟨0, _⟩ => exact lhs_row _ _
      | ⟨1, _⟩ => exact (lhs_col _ _).trans hk)
  have er : dot_S2000x128_S128x128_S2000x128_1_0_0_1_n_n.rhsIdx (ix2 p c) ((contrEquiv1 dot_S2000x128_S128x128_S2000x128_1_0_0_1_n_n 128 rfl rfl).symm k) = ix2 k c :=
    funext fun a => Fin.ext (by
      match a with
      | ⟨0, _⟩ => exact (rhs_row _ _).trans hk
      | ⟨1, _⟩ => exact rhs_col _ _)
  rw [el, er]

/-- A 128×128 matrix transposed reads, at (k, c), the matrix at (c, k). -/
theorem transpose_at {α : Type} (perm : List (Fin S128x128.rank)) (hp : perm = [1, 0]) (x : S128x128.Idx → α)
    (h : S128x128.Transposes perm S128x128) (k c : Fin 128) :
    transpose S128x128 perm x h (ix2 k c) = x (ix2 c k) := by
  subst hp
  exact transpose_apply [1, 0] x h (ix2 k c) (ix2 c k) fun b => match b with | ⟨0, _⟩ => rfl | ⟨1, _⟩ => rfl

/-- The logistic function of a vector, at an index. -/
theorem logistic_at {s : Shape} {φ : FTy} (x : FVec Ideal s φ) (i : s.Idx) : logistic x i = Ideal.logistic (x i) := rfl

/-! ## The stored value at a row and a channel -/

/-- Entry (p, c) of the value the body stores is the layer's row function of row p of the loaded blocks. -/
theorem pay_at (v0 : Vec Ideal S2000x128 .f32) (v2 : Vec Ideal S2000x1 .f32) (v4 : Vec Ideal S2000x128 .f32)
    (v7 v9 v11 : Vec Ideal S128x128 .f32) (v13 : Vec Ideal S1x128 .f32) (p : Fin 2000) (c : Fin 128) :
    k0_pay1 v0 v2 v4 v7 v9 v11 v13 (ix2 p c)
      = GatedRow.out (fun k => v0 (ix2 p k) * v2 (ix2 p (0 : Fin 1))) (fun k => v4 (ix2 p k))
          (fun c k => v7 (ix2 c k)) (fun c k => v9 (ix2 c k)) (fun c => v13 (ix2 (0 : Fin 1) c))
          (fun c k => v11 (ix2 c k)) c := by
  unfold k0_pay1
  simp only [addf_apply, mulf_apply, subf_apply, broadcast_apply, truncf_apply, logistic_at, matmul_at,
    transpose_at, shapeCast_self, broadcastTo_a1_ab_apply, broadcastTo_1b_ab_apply, Ideal.ofBits_def,
    GatedRow.out, GatedRow.mix, GatedRow.gate]

end Cert.KernelIdeal.Body

end
-- ==== Proof.KernelArray.lean ====
/-
  From the blocks the kernel writes to its whole result array.

  The grid has 20 points. At point `t` the windows of the aggregate, of the degree column, of the initial
  features and of the result all hold rows 2000·t … 2000·t + 1999 of their arrays; the three weight matrices
  and the bias row are held whole at every point. Row `p` of what point `t` stores is therefore the layer's
  row function of row 2000·t + p of the arrays the region finds: what each point writes back is its block of
  ONE whole-array function, and the twenty blocks cover the 40000 rows, so the result array ends holding
  that function. The bias row is the bias vector viewed as a 1×128 array.
-/
import proofs.«179832_j86294482911942_1_alg».proof.Proof.Gen.KernelIdeal.Value
import proofs.«179832_j86294482911942_1_alg».proof.Proof.BodyRows
import Idealize.ShloMosaic.Lib.Pipeline.Value
import Idealize.ShloMosaic.Lib.ValueLayout
import Idealize.ShloMosaic.Lib.StableHlo.Run

noncomputable section

open scoped BigOperators

open Idealize.ShloMosaic Idealize.ShloMosaic.TcCoe Idealize.SL.Sem Idealize.ShloMosaic.ValueIdx
open Idealize.ShloMosaic.Pipeline (Dat)

namespace Cert.KernelIdeal.Whole

open Cert.KernelIdeal Cert.KernelIdeal.Gen Cert.KernelIdeal.Value

variable (m : (ℓ : Loc nD τ sig) → Buf (Elt Ideal) ℓ) (ρ : Dev nD → PrngReg)

theorem hz : (![0, 0] : Fin 2 → Nat) = fun _ => 0 := funext fun a => by fin_cases a <;> rfl

/-- The block index of every window at every grid point: the four row-blocked windows sit at block row `t`,
    the four whole-array windows at block (0, 0). -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = t.val ∧ win0_7.index t (1 : Fin 2) = 0 :=
  (by decide +kernel : ∀ t : Fin grid0.N, _)

/-- The whole result: the layer of the aggregate, the degree column and the arguments as the region finds them. -/
def result (c : Dev nD) : S40000x128.Idx → EReal :=
  GatedRow.layer (V m c main_v19) (V m c main_v7) (V m c main_arg1) (V m c main_arg4) (V m c main_arg5)
    (V m c main_arg6) (V m c main_arg7)

/-! ## Each window's block read as rows of its array

Stated for ANY contents `A` of the window's array: which element of the array a block's element is depends on the
window's index map alone. -/

theorem agg_rows (A : S40000x128.Idx → EReal) (t : Fin cfg0.N) (p : Fin 2000) (k : Fin 128) (r : Fin 40000)
    (hr : r.val = 2000 * t.val + p.val) :
    ((cfg0.win 0).blk t).view.read (Elt Ideal) A (ix2 p k) = A (ix2 r k) := by
  obtain ⟨e0, e1, -⟩ := idx_facts t
  show A (((cfg0.win 0).blk t).view.emb (ix2 p k)) = _
  refine congrArg A (funext fun a => Fin.ext ?_)
  match a with
  | ⟨0, _⟩ => show win0_0.index t (0 : Fin 2) * 2000 + 1 * p.val = r.val; rw [e0, hr]; omega
  | ⟨1, _⟩ => show win0_0.index t (1 : Fin 2) * 128 + 1 * k.val = k.val; rw [e1]; omega

theorem deg_rows (A : S40000x1.Idx → EReal) (t : Fin cfg0.N) (p : Fin 2000) (r : Fin 40000)
    (hr : r.val = 2000 * t.val + p.val) :
    ((cfg0.win 1).blk t).view.read (Elt Ideal) A (ix2 p (0 : Fin 1)) = A (ix2 r (0 : Fin 1)) := by
  obtain ⟨-, -, e0, e1, -⟩ := idx_facts t
  show A (((cfg0.win 1).blk t).view.emb (ix2 p (0 : Fin 1))) = _
  refine congrArg A (funext fun a => Fin.ext ?_)
  match a with
  | ⟨0, _⟩ => show win0_1.index t (0 : Fin 2) * 2000 + 1 * p.val = r.val; rw [e0, hr]; omega
  | ⟨1, _⟩ => show win0_1.index t (1 : Fin 2) * 1 + 1 * 0 = 0; rw [e1]

theorem init_rows (A : S40000x128.Idx → EReal) (t : Fin cfg0.N) (p : Fin 2000) (k : Fin 128) (r : Fin 40000)
    (hr : r.val = 2000 * t.val + p.val) :
    ((cfg0.win 2).blk t).view.read (Elt Ideal) A (ix2 p k) = A (ix2 r k) := by
  obtain ⟨-, -, -, -, e0, e1, -⟩ := idx_facts t
  show A (((cfg0.win 2).blk t).view.emb (ix2 p k)) = _
  refine congrArg A (funext fun a => Fin.ext ?_)
  match a with
  | ⟨0, _⟩ => show win0_2.index t (0 : Fin 2) * 2000 + 1 * p.val = r.val; rw [e0, hr]; omega
  | ⟨1, _⟩ => show win0_2.index t (1 : Fin 2) * 128 + 1 * k.val = k.val; rw [e1]; omega

theorem w1_whole (A : S128x128.Idx → EReal) (t : Fin cfg0.N) (a b : Fin 128) :
    ((cfg0.win 3).blk t).view.read (Elt Ideal) A (ix2 a b) = A (ix2 a b) := by
  obtain ⟨-, -, -, -, -, -, e0, e1, -⟩ := idx_facts t
  show A (((cfg0.win 3).blk t).view.emb (ix2 a b)) = _
  refine congrArg A (funext fun d => Fin.ext ?_)
  match d with
  | ⟨0, _⟩ => show win0_3.index t (0 : Fin 2) * 128 + 1 * a.val = a.val; rw [e0]; omega
  | ⟨1, _⟩ => show win0_3.index t (1 : Fin 2) * 128 + 1 * b.val = b.val; rw [e1]; omega

theorem w2_whole (A : S128x128.Idx → EReal) (t : Fin cfg0.N) (a b : Fin 128) :
    ((cfg0.win 4).blk t).view.read (Elt Ideal) A (ix2 a b) = A (ix2 a b) := by
  obtain ⟨-, -, -, -, -, -, -, -, e0, e1, -⟩ := idx_facts t
  show A (((cfg0.win 4).blk t).view.emb (ix2 a b)) = _
  refine congrArg A (funext fun d => Fin.ext ?_)
  match d with
  | ⟨0, _⟩ => show win0_4.index t (0 : Fin 2) * 128 + 1 * a.val = a.val; rw [e0]; omega
  | ⟨1, _⟩ => show win0_4.index t (1 : Fin 2) * 128 + 1 * b.val = b.val; rw [e1]; omega

theorem bias_whole (A : S1x128.Idx → EReal) (t : Fin cfg0.N) (q : Fin 128) :
    ((cfg0.win 5).blk t).view.read (Elt Ideal) A (ix2 (0 : Fin 1) q) = A (ix2 (0 : Fin 1) q) := by
  obtain ⟨-, -, -, -, -, -, -, -, -, -, e0, e1, -⟩ := idx_facts t
  show A (((cfg0.win 5).blk t).view.emb (ix2 (0 : Fin 1) q)) = _
  refine congrArg A (funext fun d => Fin.ext ?_)
  match d with
  | ⟨0, _⟩ => show win0_5.index t (0 : Fin 2) * 1 + 1 * 0 = 0; rw [e0]
  | ⟨1, _⟩ => show win0_5.index t (1 : Fin 2) * 128 + 1 * q.val = q.val; rw [e1]; omega

theorem wl_whole (A : S128x128.Idx → EReal) (t : Fin cfg0.N) (a b : Fin 128) :
    ((cfg0.win 6).blk t).view.read (Elt Ideal) A (ix2 a b) = A (ix2 a b) := by
  obtain ⟨-, -, -, -, -, -, -, -, -, -, -, -, e0, e1, -⟩ := idx_facts t
  show A (((cfg0.win 6).blk t).view.emb (ix2 a b)) = _
  refine congrArg A (funext fun d => Fin.ext ?_)
  match d with
  | ⟨0, _⟩ => show win0_6.index t (0 : Fin 2) * 128 + 1 * a.val = a.val; rw [e0]; omega
  | ⟨1, _⟩ => show win0_6.index t (1 : Fin 2) * 128 + 1 * b.val = b.val; rw [e1]; omega

/-- The bias row as the region finds it is the bias vector viewed as one row. -/
theorem bias_row (c : Dev nD) (q : Fin 128) :
    (V m c main_v20 : S1x128.Idx → EReal) (ix2 (0 : Fin 1) q) = (V m c main_arg6 : S128.Idx → EReal) (ix1 q) := by
  rw [V_main_arg6]
  dsimp only [V]
  simp only [hostOps0, hostOps0_1, hostOps0_2, List.flatten_cons, List.flatten_nil, List.append_nil, List.cons_append,
    List.nil_append]
  after_results
  exact shapeCast_a_1a_apply _ _ 0 q

/-- Row `p` of the result's block at point `t` is row 2000·t + p of the result array. -/
theorem out_row (t : Fin cfg0.N) (p : Fin 2000) (q : Fin 128) (r : Fin 40000) (hr : r.val = 2000 * t.val + p.val) :
    (((cfg0.win 7).blk t).view.emb (ix2 p q) : S40000x128.Idx) = ix2 r q := by
  obtain ⟨-, -, -, -, -, -, -, -, -, -, -, -, -, -, e0, e1⟩ := idx_facts t
  refine funext fun a => Fin.ext ?_
  match a with
  | ⟨0, _⟩ => show win0_7.index t (0 : Fin 2) * 2000 + 1 * p.val = r.val; rw [e0, hr]; omega
  | ⟨1, _⟩ => show win0_7.index t (1 : Fin 2) * 128 + 1 * q.val = q.val; rw [e1]; omega

/-! ## What each point writes back, and the whole array -/

/-- Any contents of the result array, read through point `t`'s block at (p, q), is the array at row 2000·t + p. -/
theorem out_rows (A : S40000x128.Idx → EReal) (t : Fin cfg0.N) (p : Fin 2000) (q : Fin 128) (r : Fin 40000)
    (hr : r.val = 2000 * t.val + p.val) :
    ((cfg0.win 7).blk t).view.read (Elt Ideal) A (ix2 p q) = A (ix2 r q) := by
  show A (((cfg0.win 7).blk t).view.emb (ix2 p q)) = _
  exact congrArg A (out_row t p q r hr)

/-- The part of a stored block that is written back is the whole block: the result's blocks are never cut. -/
theorem cut_whole (X : S2000x128.Idx → EReal) (t : Fin cfg0.N) (p : Fin 2000) (q : Fin 128) :
    (cfg0.win 7).cut (grid0.coords t) X (ix2 p q) = X (ix2 p q) := rfl

/-- Each input window's block is its array, as the region finds it, read through the block. -/
theorem blk0 (c : Dev nD) (t : Fin cfg0.N) : iblk m c 0 t = ((cfg0.win 0).blk t).view.read (Elt Ideal) (V m c main_v19) := rfl
theorem blk1 (c : Dev nD) (t : Fin cfg0.N) : iblk m c 1 t = ((cfg0.win 1).blk t).view.read (Elt Ideal) (V m c main_v7) := rfl
theorem blk2 (c : Dev nD) (t : Fin cfg0.N) : iblk m c 2 t = ((cfg0.win 2).blk t).view.read (Elt Ideal) (V m c main_arg1) := rfl
theorem blk3 (c : Dev nD) (t : Fin cfg0.N) : iblk m c 3 t = ((cfg0.win 3).blk t).view.read (Elt Ideal) (V m c main_arg4) := rfl
theorem blk4 (c : Dev nD) (t : Fin cfg0.N) : iblk m c 4 t = ((cfg0.win 4).blk t).view.read (Elt Ideal) (V m c main_arg5) := rfl
theorem blk5 (c : Dev nD) (t : Fin cfg0.N) : iblk m c 5 t = ((cfg0.win 5).blk t).view.read (Elt Ideal) (V m c main_v20) := rfl
theorem blk6 (c : Dev nD) (t : Fin cfg0.N) : iblk m c 6 t = ((cfg0.win 6).blk t).view.read (Elt Ideal) (V m c main_arg7) := rfl

/-- What point `t` writes back is block `t` of `result`. -/
theorem flushed_eq (c : Dev nD) (t : Fin cfg0.N) :
    (dats m 0 c).flushed 7 t = ((cfg0.win 7).blk t).view.read (Elt Ideal) (result m c) := by
  rw [flushed7 m c t]
  unfold out0_7
  rw [View.canon_unit_zero hz]
  simp only [View.ld_unit_zero (S := S2000x128) hz, View.ld_unit_zero (S := S2000x1) hz,
    View.ld_unit_zero (S := S128x128) hz, View.ld_unit_zero (S := S1x128) hz]
  refine funext fun (y : S2000x128.Idx) => ?_
  obtain ⟨p, q, rfl⟩ : ∃ (p : Fin 2000) (q : Fin 128), y = ix2 p q := ⟨y 0, y 1, eq_ix2 y⟩
  have hN : cfg0.N = 20 := N_0
  have ht := t.isLt
  have hp := p.isLt
  obtain ⟨r, hr⟩ : ∃ r : Fin 40000, r.val = 2000 * t.val + p.val := ⟨⟨2000 * t.val + p.val, by omega⟩, rfl⟩
  rw [out_rows (result m c) t p q r hr, cut_whole]
  refine (Body.pay_at (iblk m c 0 t) (iblk m c 1 t) (iblk m c 2 t) (iblk m c 3 t) (iblk m c 4 t) (iblk m c 6 t) (iblk m c 5 t) p q).trans ?_
  unfold result
  rw [GatedRow.layer_ix2]
  unfold GatedRow.layerAt
  rw [blk0, blk1, blk2, blk3, blk4, blk5, blk6]
  refine GatedRow.out_congr (funext fun k => ?_) (funext fun k => ?_) (funext fun a => funext fun b => ?_)
    (funext fun a => funext fun b => ?_) (funext fun a => ?_) (funext fun a => funext fun b => ?_) q
  · rw [agg_rows (V m c main_v19) t p k r hr, deg_rows (V m c main_v7) t p r hr]
  · exact init_rows (V m c main_arg1) t p k r hr
  · exact w1_whole (V m c main_arg4) t a b
  · exact w2_whole (V m c main_arg5) t a b
  · exact (bias_whole (V m c main_v20) t a).trans (bias_row m c a)
  · exact wl_whole (V m c main_arg7) t a b

/-- An index of the result array is in point `t`'s block iff each coordinate is in the block's range. -/
theorem mem_blk (t : Fin cfg0.N) (i : S40000x128.Idx) :
    i ∈ ((cfg0.win 7).blk t).view.set ↔ ∀ a : Fin 2, win0_7.index t a * S2000x128.size a ≤ (i a).val ∧ (i a).val < win0_7.index t a * S2000x128.size a + S2000x128.size a := by
  show i ∈ ((View.whole main_v21).slice (win0_7.rect t)).set ↔ _
  rw [View.set_slice_whole, Rect.mem_set_unit]
  exact Iff.rfl

/-- Every index of the result array lies in the block of the point its row falls in. -/
theorem cover (i : S40000x128.Idx) : ∃ t : Fin cfg0.N, (cfg0.win 7).flush t = true ∧ i ∈ ((cfg0.win 7).blk t).view.set := by
  have hN : cfg0.N = 20 := N_0
  have hi0 : (i 0).val < 40000 := (i 0).isLt
  have hi1 : (i 1).val < 128 := (i 1).isLt
  let t : Fin cfg0.N := ⟨(i 0).val / 2000, by omega⟩
  have htv : t.val = (i 0).val / 2000 := rfl
  obtain ⟨-, -, -, -, -, -, -, -, -, -, -, -, -, -, e0, e1⟩ := idx_facts t
  refine ⟨t, flush0_7 t, ?_⟩
  rw [mem_blk]
  intro a
  match a with
  | ⟨0, _⟩ => show win0_7.index t (0 : Fin 2) * 2000 ≤ (i 0).val ∧ (i 0).val < win0_7.index t (0 : Fin 2) * 2000 + 2000; rw [e0, htv]; omega
  | ⟨1, _⟩ => show win0_7.index t (1 : Fin 2) * 128 ≤ (i 1).val ∧ (i 1).val < win0_7.index t (1 : Fin 2) * 128 + 128; rw [e1]; omega

/-- The result array after the run is `result`. -/
theorem final (c : Dev nD) : (dats m 0 c).arrAt 7 cfg0.N = result m c :=
  (dats m 0 c).arrAt_eq_of_cover 7 (result m c) (fun t _ => flushed_eq m c t) cover

/-- The kernel's run, read: the result array at `result`, the arguments unchanged. -/
theorem run : θ_run defs (onTc (τ := τ) (main (F := Ideal))) ⟨m, fun _ => 0, ρ⟩ fun r => ∀ c : Dev nD,
      r.2.mem ((c : Thread nD τ).loc main_v21) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => ⟨(h c).1.trans (final m c), (h c).2⟩) (run_blocks m ρ)

end Cert.KernelIdeal.Whole

end
-- ==== Proof.RefRows.lean ====
/-
  The reference program read row by row.

  The reference computes the layer on whole arrays: the aggregate times the broadcast degree column, three
  products with transposed weight matrices, the logistic function spelled as 1 / (1 + e^(−z)), and the final
  blend. Read at node `r` and channel `c`, each stage depends on row `r` of the aggregate, of the degree column
  and of the initial features only, and the result is the row function `GatedRow.out` there. The aggregate
  and the degree column themselves (a scatter-add of gathered rows, and a power of clamped in-degrees) are
  kept as the stages that compute them, unopened.
-/
import proofs.«179832_j86294482911942_1_alg».proof.Proof.Gen.ReferenceIdeal.Read
import proofs.«179832_j86294482911942_1_alg».proof.Proof.GatedRow

noncomputable section

open scoped BigOperators

namespace Cert.ReferenceIdeal.Rows

open Cert.ReferenceIdeal Cert.ReferenceIdeal.Read Idealize.ShloMosaic Idealize.ShloMosaic.ValueIdx

variable (x0 x1 : (⟨S40000x128, .f32⟩ : BufTy).Contents (Elt Ideal)) (x2 x3 : (⟨S640000, .i32⟩ : BufTy).Contents (Elt Ideal))
  (x4 x5 : (⟨S128x128, .f32⟩ : BufTy).Contents (Elt Ideal)) (x6 : (⟨S128, .f32⟩ : BufTy).Contents (Elt Ideal))
  (x7 : (⟨S128x128, .f32⟩ : BufTy).Contents (Elt Ideal))

/-- The degree-normalized aggregate at (r, k): the aggregate there times the degree factor of node r. -/
theorem h_at (r : Fin 40000) (k : Fin 128) :
    val_main_v21 (F := Ideal) x0 x2 x3 (ix2 r k)
      = val_main_v19 (F := Ideal) x0 x2 x3 (ix2 r k) * val_main_v7 (F := Ideal) x3 (ix2 r (0 : Fin 1)) := by
  have e : idx_main_v20 (ix2 r k) = ix2 r (0 : Fin 1) :=
    funext fun a => Fin.ext (by match a with | ⟨0, _⟩ => rfl | ⟨1, _⟩ => rfl)
  rw [val_main_v21_apply, val_main_v20_apply, e]
  rfl

/-- The first projection at (r, c): the normalized row r against row c of W1. -/
theorem proj1_at (r : Fin 40000) (c : Fin 128) :
    val_main_v23 (F := Ideal) x0 x2 x3 x4 (ix2 r c)
      = ∑ k : Fin 128, (val_main_v19 (F := Ideal) x0 x2 x3 (ix2 r k) * val_main_v7 (F := Ideal) x3 (ix2 r (0 : Fin 1))) * x4 (ix2 c k) := by
  rw [val_main_v23_apply]
  refine Finset.sum_congr rfl fun k _ => ?_
  have e1 : lidx_main_v23 (ix2 r c) k = ix2 r k :=
    funext fun a => Fin.ext (by match a with | ⟨0, _⟩ => rfl | ⟨1, _⟩ => rfl)
  have e2 : ridx_main_v23 (ix2 r c) k = ix2 k c :=
    funext fun a => Fin.ext (by match a with | ⟨0, _⟩ => rfl | ⟨1, _⟩ => rfl)
  have e3 : idx_main_v22 (ix2 k c) = ix2 c k :=
    funext fun a => Fin.ext (by match a with | ⟨0, _⟩ => rfl | ⟨1, _⟩ => rfl)
  rw [e1, e2, val_main_v22_apply, e3, h_at]

/-- The second projection at (r, c): the initial row r against row c of W2. -/
theorem proj2_at (r : Fin 40000) (c : Fin 128) :
    val_main_v25 (F := Ideal) x1 x5 (ix2 r c) = ∑ k : Fin 128, x1 (ix2 r k) * x5 (ix2 c k) := by
  rw [val_main_v25_apply]
  refine Finset.sum_congr rfl fun k _ => ?_
  have e1 : lidx_main_v25 (ix2 r c) k = ix2 r k :=
    funext fun a => Fin.ext (by match a with | ⟨0, _⟩ => rfl | ⟨1, _⟩ => rfl)
  have e2 : ridx_main_v25 (ix2 r c) k = ix2 k c :=
    funext fun a => Fin.ext (by match a with | ⟨0, _⟩ => rfl | ⟨1, _⟩ => rfl)
  have e3 : idx_main_v24 (ix2 k c) = ix2 c k :=
    funext fun a => Fin.ext (by match a with | ⟨0, _⟩ => rfl | ⟨1, _⟩ => rfl)
  rw [e1, e2, val_main_v24_apply, e3]

/-- The gate at (r, c): the spelled-out logistic function is the logistic function. -/
theorem gate_at (r : Fin 40000) (c : Fin 128) :
    val_main_v35 (F := Ideal) x0 x1 x2 x3 x4 x5 x6 (ix2 r c)
      = GatedRow.gate (fun k => val_main_v19 (F := Ideal) x0 x2 x3 (ix2 r k) * val_main_v7 (F := Ideal) x3 (ix2 r (0 : Fin 1)))
          (fun k => x1 (ix2 r k)) (fun c k => x4 (ix2 c k)) (fun c k => x5 (ix2 c k)) (fun c => x6 (ix1 c)) c := by
  have e : idx_main_v27 (idx_main_v28 (ix2 r c)) = ix1 c :=
    funext fun a => Fin.ext (by match a with | ⟨0, _⟩ => rfl)
  rw [val_main_v35_apply, val_main_v34_apply, val_main_cst_6_apply, val_main_v33_apply, val_main_v32_apply,
    val_main_cst_5_apply, val_main_v31_apply, val_main_v30_apply, val_main_v29_apply, val_main_v26_apply,
    proj1_at, proj2_at, val_main_v28_apply, val_main_v27_apply, e]
  simp only [Ideal.hostDivf_def, Ideal.ofBits_def, Ideal.addf_def, Ideal.hostUnary_exp_def, Ideal.hostNegf_def, Ideal.negf_def]
  exact GatedRow.logistic_spelled _

/-- The mixed row at (r, c). -/
theorem mix_at (r : Fin 40000) (c : Fin 128) :
    val_main_v40 (F := Ideal) x0 x1 x2 x3 x4 x5 x6 (ix2 r c)
      = GatedRow.mix (fun k => val_main_v19 (F := Ideal) x0 x2 x3 (ix2 r k) * val_main_v7 (F := Ideal) x3 (ix2 r (0 : Fin 1)))
          (fun k => x1 (ix2 r k)) (fun c k => x4 (ix2 c k)) (fun c k => x5 (ix2 c k)) (fun c => x6 (ix1 c)) c := by
  rw [val_main_v40_apply, val_main_v36_apply, val_main_v39_apply, val_main_v38_apply, val_main_v37_apply,
    val_main_cst_7_apply, h_at, gate_at]
  rfl

/-- The linear image of the mixed row at (r, c): the mixed row r against row c of Wl. -/
theorem lin_at (r : Fin 40000) (c : Fin 128) :
    val_main_v44 (F := Ideal) x0 x1 x2 x3 x4 x5 x6 x7 (ix2 r c)
      = ∑ k : Fin 128, GatedRow.mix (fun k => val_main_v19 (F := Ideal) x0 x2 x3 (ix2 r k) * val_main_v7 (F := Ideal) x3 (ix2 r (0 : Fin 1)))
          (fun k => x1 (ix2 r k)) (fun c k => x4 (ix2 c k)) (fun c k => x5 (ix2 c k)) (fun c => x6 (ix1 c)) k * x7 (ix2 c k) := by
  rw [val_main_v44_apply]
  refine Finset.sum_congr rfl fun k _ => ?_
  have e1 : lidx_main_v44 (ix2 r c) k = ix2 r k :=
    funext fun a => Fin.ext (by match a with | ⟨0, _⟩ => rfl | ⟨1, _⟩ => rfl)
  have e2 : ridx_main_v44 (ix2 r c) k = ix2 k c :=
    funext fun a => Fin.ext (by match a with | ⟨0, _⟩ => rfl | ⟨1, _⟩ => rfl)
  have e3 : idx_main_v43 (ix2 k c) = ix2 c k :=
    funext fun a => Fin.ext (by match a with | ⟨0, _⟩ => rfl | ⟨1, _⟩ => rfl)
  rw [e1, e2, val_main_v43_apply, e3, mix_at]

/-- The reference's result at (r, c) is the layer's row function there. -/
theorem out_at (r : Fin 40000) (c : Fin 128) :
    val_main_v47 (F := Ideal) x0 x1 x2 x3 x4 x5 x6 x7 (ix2 r c)
      = GatedRow.layerAt (val_main_v19 (F := Ideal) x0 x2 x3) (val_main_v7 (F := Ideal) x3) x1 x4 x5 x6 x7 r c := by
  rw [val_main_v47_apply, val_main_v42_apply, val_main_v41_apply, val_main_cst_8_apply, val_main_v46_apply,
    val_main_v45_apply, val_main_cst_9_apply, lin_at, mix_at]
  rfl

/-- The reference's whole result is the layer of the aggregate, the degree column and the arguments. -/
theorem result_eq :
    val_main_v47 (F := Ideal) x0 x1 x2 x3 x4 x5 x6 x7
      = GatedRow.layer (val_main_v19 (F := Ideal) x0 x2 x3) (val_main_v7 (F := Ideal) x3) x1 x4 x5 x6 x7 := by
  funext i
  obtain ⟨r, c, rfl⟩ : ∃ (r : Fin 40000) (c : Fin 128), i = ix2 r c := ⟨i 0, i 1, eq_ix2 i⟩
  rw [out_at, GatedRow.layer_ix2]

end Cert.ReferenceIdeal.Rows

end
-- ==== Proof.SharedPrelude.lean ====
/-
  The part both programs share.

  Before the fused stage both programs run the same host operations on the same arguments: the in-degrees
  as a scatter-add of ones, clamped below by one and raised to the power −1/2 (the degree column), the
  features scaled by it, gathered along the edges' sources and scatter-added at their targets (the
  aggregate). The kernel program hands these two arrays to its region; the reference goes on from them. They
  are the same terms of the arguments, operation for operation, so nothing of them is opened here.
-/
import proofs.«179832_j86294482911942_1_alg».proof.Proof.Gen.KernelIdeal.Frame
import proofs.«179832_j86294482911942_1_alg».proof.Proof.Gen.ReferenceIdeal.Read
import Idealize.ShloMosaic.Lib.StableHlo.Run

noncomputable section

open Idealize.ShloMosaic Idealize.ShloMosaic.TcCoe Idealize.SL.Sem

namespace Cert.KernelIdeal.Shared

open Cert.KernelIdeal Cert.KernelIdeal.Gen

variable (m : (ℓ : Loc nD τ sig) → Buf (Elt Ideal) ℓ)

/-! ## Small identifications -/

/-- The two programs' dimension records for the scatters and the gather are the same records. -/
theorem scatter_deg_eq :
    (scatter_S40000_S640000x1_S640000_n_0_0_1 : ScatterDims S40000 S640000x1 S640000)
      = Cert.ReferenceIdeal.scatter_S40000_S640000x1_S640000_n_0_0_1 := rfl
theorem gather_eq :
    (gather_S40000x128_S640000x1_S640000x128_1_0_n_n_0_1_1128 : GatherDims S40000x128 S640000x1 S640000x128)
      = Cert.ReferenceIdeal.gather_S40000x128_S640000x1_S640000x128_1_0_n_n_0_1_1128 := rfl
theorem scatter_agg_eq :
    (scatter_S40000x128_S640000x1_S640000x128_1_0_0_1 : ScatterDims S40000x128 S640000x1 S640000x128)
      = Cert.ReferenceIdeal.scatter_S40000x128_S640000x1_S640000x128_1_0_0_1 := rfl

/-- For the outlined clamp's buffers the value's type is the buffer's type, so the transports are the identity. -/
theorem toBuf_v4 (v : (⟨S40000, .f32⟩ : BufTy).Contents (Elt Ideal)) :
    (StableHlo.TRef.of main_v4 : StableHlo.TRef sig ⟨S40000, .f32⟩).toBuf v = v := rfl
theorem ofBuf_v3 (v : (⟨S40000, .f32⟩ : BufTy).Contents (Elt Ideal)) :
    (StableHlo.TRef.of main_v3 : StableHlo.TRef sig ⟨S40000, .f32⟩).ofBuf v = v := rfl
theorem ofBuf_cst_1 (v : (⟨S_, .f32⟩ : BufTy).Contents (Elt Ideal)) :
    (StableHlo.TRef.of main_cst_1 : StableHlo.TRef sig ⟨S_, .f32⟩).ofBuf v = v := rfl
theorem toBuf_call0_v0 (v : (⟨S_, .f32⟩ : BufTy).Contents (Elt Ideal)) :
    (StableHlo.TRef.of main_call0_v0 : StableHlo.TRef sig ⟨S_, .f32⟩).toBuf v = v := rfl

/-- A buffer of core `c` named by its device reference or by its location. -/
theorem at_loc (c : Dev nD) (b : Ref sig .tc) : m (c, Proc.tc.devRef b) = m ((c : Thread nD τ).loc b) := rfl

/-! ## The two shared arrays -/

open Cert.ReferenceIdeal.Read in
set_option maxHeartbeats 400000 in
/-- The degree column the region finds is the reference's degree column of the same argument. -/
theorem deg_eq (c : Dev nD) :
    (V m c main_v7 : S40000x1.Idx → EReal)
      = Cert.ReferenceIdeal.Read.val_main_v7 (F := Ideal) (m ((c : Thread nD τ).loc main_arg3)) := by
  dsimp only [V]
  simp only [hostOps0, hostOps0_1, hostOps0_2, List.flatten_cons, List.flatten_nil, List.append_nil, List.cons_append,
    List.nil_append]
  after_results
  unfold val_main_v7 val_main_v6 val_main_v5 val_main_cst_2 val_main_v4 val_main_call0_v1 val_main_call0_v0
    val_main_cst_1 val_main_v3 val_main_v2 val_main_v1 val_main_cst_0 val_main_v0 val_main_cst
  repeat (first | rw [toBuf_v4] | rw [ofBuf_v3] | rw [ofBuf_cst_1] | rw [toBuf_call0_v0])
  rw [scatter_deg_eq, at_loc m c main_arg3]

open Cert.ReferenceIdeal.Read in
set_option maxHeartbeats 400000 in
/-- The aggregate the region finds is the reference's aggregate of the same arguments. -/
theorem agg_eq (c : Dev nD) :
    (V m c main_v19 : S40000x128.Idx → EReal)
      = Cert.ReferenceIdeal.Read.val_main_v19 (F := Ideal) (m ((c : Thread nD τ).loc main_arg0))
          (m ((c : Thread nD τ).loc main_arg2)) (m ((c : Thread nD τ).loc main_arg3)) := by
  dsimp only [V]
  simp only [hostOps0, hostOps0_1, hostOps0_2, List.flatten_cons, List.flatten_nil, List.append_nil, List.cons_append,
    List.nil_append]
  after_results_simp
  unfold val_main_v19 val_main_v18 val_main_v17 val_main_cst_4 val_main_v16 val_main_v15 val_main_v14 val_main_v13
    val_main_v12 val_main_c_3 val_main_v11 val_main_v10 val_main_c val_main_v9 val_main_v8
    val_main_v7 val_main_v6 val_main_v5 val_main_cst_2 val_main_v4 val_main_call0_v1 val_main_call0_v0
    val_main_cst_1 val_main_v3 val_main_v2 val_main_v1 val_main_cst_0 val_main_v0 val_main_cst
  repeat (first | rw [toBuf_v4] | rw [ofBuf_v3] | rw [ofBuf_cst_1] | rw [toBuf_call0_v0])
  rw [scatter_agg_eq, gather_eq, scatter_deg_eq, at_loc m c main_arg0, at_loc m c main_arg2, at_loc m c main_arg3]

end Cert.KernelIdeal.Shared

end
-- ==== Proof.lean ====
/-
  A gated graph-convolution layer: the fused kernel against its array-level reference, over the extended reals.

  Both programs first compute, by the same host operations on the same arguments, the degree column
  (in-degrees clamped below by one, to the power −1/2) and the aggregate (the scaled features gathered along
  the edges' sources and summed at their targets). The reference then computes, on whole 40000×128 arrays,
  h = aggregate · degree, gate = logistic (h·W1ᵀ + init·W2ᵀ + b), mixed = h·gate + init·(1 − gate) and
  0.9f·mixed + 0.1f·(mixed·Wlᵀ). The kernel computes the same per block of 2000 nodes, with the operands of
  its three products rounded to a 16-bit format, which is the identity on the extended reals.

  Every entry (r, c) of either result is ONE function of row r of the aggregate, of the degree column and of
  the initial features, of the weights and of the bias (`GatedRow.out`): the kernel's because a block's row
  p at grid point t is row 2000·t + p of each array and the twenty blocks cover the rows (Proof/BodyRows.lean,
  Proof/KernelArray.lean), the reference's by reading its operations one at a time (Proof/RefRows.lean); the
  logistic function the kernel applies is the 1 / (1 + e^(−z)) the reference spells out. No law of arithmetic
  beyond that is used, so finiteness of the inputs is never needed. The aggregate and the degree column are
  the same terms in both programs and are never opened (Proof/SharedPrelude.lean).
-/
import proofs.«179832_j86294482911942_1_alg».proof.Defs
import proofs.«179832_j86294482911942_1_alg».proof.Proof.Gen.Kernel
import proofs.«179832_j86294482911942_1_alg».proof.Proof.Gen.Kernel.Skeleton
import proofs.«179832_j86294482911942_1_alg».proof.Proof.Gen.Kernel.Launch
import proofs.«179832_j86294482911942_1_alg».proof.Proof.Gen.Kernel.Points
import proofs.«179832_j86294482911942_1_alg».proof.Proof.Gen.Kernel.Frame
import proofs.«179832_j86294482911942_1_alg».proof.Proof.Gen.KernelIdeal
import proofs.«179832_j86294482911942_1_alg».proof.Proof.Gen.KernelIdeal.Skeleton
import proofs.«179832_j86294482911942_1_alg».proof.Proof.Gen.KernelIdeal.Launch
import proofs.«179832_j86294482911942_1_alg».proof.Proof.Gen.KernelIdeal.Points
import proofs.«179832_j86294482911942_1_alg».proof.Proof.Gen.KernelIdeal.Frame
import proofs.«179832_j86294482911942_1_alg».proof.Proof.Gen.ReferenceIdeal
import proofs.«179832_j86294482911942_1_alg».proof.Proof.Gen.Pre_finite_inputs
import proofs.«179832_j86294482911942_1_alg».proof.Proof.Gen.KernelIdeal.Value
import proofs.«179832_j86294482911942_1_alg».proof.Proof.Gen.ReferenceIdeal.Run
import proofs.«179832_j86294482911942_1_alg».proof.Proof.Gen.ReferenceIdeal.Read
import proofs.«179832_j86294482911942_1_alg».proof.Proof.KernelArray
import proofs.«179832_j86294482911942_1_alg».proof.Proof.RefRows
import proofs.«179832_j86294482911942_1_alg».proof.Proof.SharedPrelude
import Idealize.ShloMosaic.Adequacy
import Idealize.ShloMosaic.Init

noncomputable section

namespace Cert.Proof

open Idealize.ShloMosaic Idealize.ShloMosaic.TcCoe Idealize.SL.Sem

/-- The word-level kernel program runs to the end without a fault and leaves its arguments as they were. -/
theorem frame_k : Cert.frame_Kernel := fun m ρ _ => Cert.Kernel.Gen.frame m ρ

/-- So does the kernel program read over the extended reals. -/
theorem frame_ki : Cert.frame_KernelIdeal := fun m ρ _ => Cert.KernelIdeal.Gen.frame m ρ

/-- So does the reference: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealized kernel is the kernel's own text: no operation was rewritten. -/
theorem preserves : Cert.preserves_Kernel_KernelIdeal := trivial

/-- From memories agreeing on the arguments both programs end with the layer of the shared aggregate and
    degree column: the kernel block by block, the reference array by array. -/
theorem algebraic : Cert.algebraic_KernelIdeal_ReferenceIdeal := by
  intro m ρ m' ρ' _ hagree
  refine ⟨fun c => Cert.KernelIdeal.Whole.result m c, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7⟩ := hagree c
  show Cert.ReferenceIdeal.Value.res_main_v47 m' c = Cert.KernelIdeal.Whole.result m c
  rw [Cert.ReferenceIdeal.Read.val_main_v47_eq, Cert.ReferenceIdeal.Rows.result_eq, a0, a1, a2, a3, a4, a5, a6, a7]
  unfold Cert.KernelIdeal.Whole.result
  rw [Cert.KernelIdeal.Shared.agg_eq m c, Cert.KernelIdeal.Shared.deg_eq m c, Cert.KernelIdeal.Gen.V_main_arg1 m c,
    Cert.KernelIdeal.Gen.V_main_arg4 m c, Cert.KernelIdeal.Gen.V_main_arg5 m c, Cert.KernelIdeal.Gen.V_main_arg6 m c,
    Cert.KernelIdeal.Gen.V_main_arg7 m c]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
